-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x256x256 : Shape := ⟨4, ![16, 3, 256, 256]⟩
abbrev S64x3x3x3 : Shape := ⟨4, ![64, 3, 3, 3]⟩
abbrev S64 : Shape := ⟨1, ![64]⟩
abbrev S_ : Shape := ⟨0, ![]⟩

class Facts : Prop where
  bcast_S_S16x3x256x256 : S_.BroadcastsInDim S16x3x256x256 (![] : Fin 0 → Fin S16x3x256x256.rank)
  reducesTo_S16x3x256x256_S_d0_1_2_3 : S16x3x256x256.ReducesTo [0, 1, 2, 3] S_
  h_S_ : 0 < S_.numel
  bcast_S_S64x3x3x3 : S_.BroadcastsInDim S64x3x3x3 (![] : Fin 0 → Fin S64x3x3x3.rank)
  reducesTo_S64x3x3x3_S_d0_1_2_3 : S64x3x3x3.ReducesTo [0, 1, 2, 3] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x3x256x256 .f32) (main_arg1 : FVec F S64x3x3x3 .f32) (main_arg2 : FVec F S64 .f32) : IVec S_ 1 :=
  let main_v0 : FVec F S16x3x256x256 .f32 := Host.absf main_arg0
  let main_cst : FVec F S_ .f32 := constant S_ .f32 0x7F800000#32
  let main_v1 : FVec F S16x3x256x256 .f32 := broadcastInDim S16x3x256x256 ![] bcast_S_S16x3x256x256 main_cst
  let main_v2 : IVec S16x3x256x256 1 := cmpf .olt main_v0 main_v1
  let main_c : IVec S_ 1 := constantI S_ 1 1#1
  let main_v3 : IVec S_ 1 := (fun x v => Host.reduce IntOp.andi x v reducesTo_S16x3x256x256_S_d0_1_2_3 h_S_) main_v2 main_c
  let main_v4 : FVec F S64x3x3x3 .f32 := Host.absf main_arg1
  let main_cst_0 : FVec F S_ .f32 := constant S_ .f32 0x7F800000#32
  let main_v5 : FVec F S64x3x3x3 .f32 := broadcastInDim S64x3x3x3 ![] bcast_S_S64x3x3x3 main_cst_0
  let main_v6 : IVec S64x3x3x3 1 := cmpf .olt main_v4 main_v5
  let main_c_1 : IVec S_ 1 := constantI S_ 1 1#1
  let main_v7 : IVec S_ 1 := (fun x v => Host.reduce IntOp.andi x v reducesTo_S64x3x3x3_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x3x256x256 : Shape := ⟨4, ![16, 3, 256, 256]⟩
abbrev S64x3x3x3 : Shape := ⟨4, ![64, 3, 3, 3]⟩
abbrev S64 : Shape := ⟨1, ![64]⟩
abbrev S16x1x256x256 : Shape := ⟨4, ![16, 1, 256, 256]⟩
abbrev S16x256x256 : Shape := ⟨3, ![16, 256, 256]⟩
abbrev S64x1x3x3 : Shape := ⟨4, ![64, 1, 3, 3]⟩
abbrev S64x3x3 : Shape := ⟨3, ![64, 3, 3]⟩
abbrev S64x9 : Shape := ⟨2, ![64, 9]⟩
abbrev S64x1 : Shape := ⟨2, ![64, 1]⟩
abbrev S16x64x254x254 : Shape := ⟨4, ![16, 64, 254, 254]⟩
abbrev S1x256x256 : Shape := ⟨3, ![1, 256, 256]⟩
abbrev S16x9 : Shape := ⟨2, ![16, 9]⟩
abbrev S16x1 : Shape := ⟨2, ![16, 1]⟩
abbrev S1x16x254x254 : Shape := ⟨4, ![1, 16, 254, 254]⟩
abbrev S256x256 : Shape := ⟨2, ![256, 256]⟩
abbrev S16x254x254 : Shape := ⟨3, ![16, 254, 254]⟩
abbrev S254x254 : Shape := ⟨2, ![254, 254]⟩
abbrev S16x1x1 : Shape := ⟨3, ![16, 1, 1]⟩
abbrev S1x254x254 : Shape := ⟨3, ![1, 254, 254]⟩

abbrev nBuf : Space → Nat
  | .hbm => 10
  | .vmem => 8
  | .smem => 0
  | _ => 0

abbrev bufTy : (tb : Table) → Fin (tcTables nBuf tb) → BufTy
  | .hbm, ⟨0, _⟩ => ⟨S16x3x256x256, .f32⟩
  | .hbm, ⟨1, _⟩ => ⟨S64x3x3x3, .f32⟩
  | .hbm, ⟨2, _⟩ => ⟨S64, .f32⟩
  | .hbm, ⟨3, _⟩ => ⟨S16x1x256x256, .f32⟩
  | .hbm, ⟨4, _⟩ => ⟨S16x256x256, .f32⟩
  | .hbm, ⟨5, _⟩ => ⟨S64x1x3x3, .f32⟩
  | .hbm, ⟨6, _⟩ => ⟨S64x3x3, .f32⟩
  | .hbm, ⟨7, _⟩ => ⟨S64x9, .f32⟩
  | .hbm, ⟨8, _⟩ => ⟨S64x1, .f32⟩
  | .hbm, ⟨9, _⟩ => ⟨S16x64x254x254, .f32⟩
  | .local _ .vmem, ⟨0, _⟩ => ⟨S1x256x256, .f32⟩
  | .local _ .vmem, ⟨1, _⟩ => ⟨S1x256x256, .f32⟩
  | .local _ .vmem, ⟨2, _⟩ => ⟨S16x9, .f32⟩
  | .local _ .vmem, ⟨3, _⟩ => ⟨S16x9, .f32⟩
  | .local _ .vmem, ⟨4, _⟩ => ⟨S16x1, .f32⟩
  | .local _ .vmem, ⟨5, _⟩ => ⟨S16x1, .f32⟩
  | .local _ .vmem, ⟨6, _⟩ => ⟨S1x16x254x254, .f32⟩
  | .local _ .vmem, ⟨7, _⟩ => ⟨S1x16x254x254, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x16x254x254 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S16x3x256x256_S16x1x256x256_0_0_0_0 : S16x3x256x256.Slices ![0, 0, 0, 0] S16x1x256x256
  shapeCasts_S16x1x256x256_S16x256x256 : S16x1x256x256.ShapeCasts S16x256x256
  slices_S64x3x3x3_S64x1x3x3_0_2_0_0 : S64x3x3x3.Slices ![0, 2, 0, 0] S64x1x3x3
  shapeCasts_S64x1x3x3_S64x3x3 : S64x1x3x3.ShapeCasts S64x3x3
  shapeCasts_S64x3x3_S64x9 : S64x3x3.ShapeCasts S64x9
  shapeCasts_S64_S64x1 : S64.ShapeCasts S64x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  slices_S256x256_o0_0_S254x254 : S256x256.Slices ![0, 0] S254x254
  inb_S16x9_S16x1_0_0 : ∀ a, (![0, 0] : Fin 2 → Nat) a + S16x1.size a ≤ S16x9.size a
  h_S16x1 : 0 < S16x1.numel
  shapeCasts_S16x1_S16x1 : S16x1.ShapeCasts S16x1
  shapeCasts_S16x1_S16x1x1 : S16x1.ShapeCasts S16x1x1
  shapeCasts_S254x254_S1x254x254 : S254x254.ShapeCasts S1x254x254
  broadcasts_S16x1x1_S16x254x254 : S16x1x1.Broadcasts S16x254x254
  broadcasts_S1x254x254_S16x254x254 : S1x254x254.Broadcasts S16x254x254
  slices_S256x256_o0_1_S254x254 : S256x256.Slices ![0, 1] S254x254
  inb_S16x9_S16x1_0_1 : ∀ a, (![0, 1] : Fin 2 → Nat) a + S16x1.size a ≤ S16x9.size a
  slices_S256x256_o0_2_S254x254 : S256x256.Slices ![0, 2] S254x254
  inb_S16x9_S16x1_0_2 : ∀ a, (![0, 2] : Fin 2 → Nat) a + S16x1.size a ≤ S16x9.size a
  slices_S256x256_o1_0_S254x254 : S256x256.Slices ![1, 0] S254x254
  inb_S16x9_S16x1_0_3 : ∀ a, (![0, 3] : Fin 2 → Nat) a + S16x1.size a ≤ S16x9.size a
  slices_S256x256_o1_1_S254x254 : S256x256.Slices ![1, 1] S254x254
  inb_S16x9_S16x1_0_4 : ∀ a, (![0, 4] : Fin 2 → Nat) a + S16x1.size a ≤ S16x9.size a
  slices_S256x256_o1_2_S254x254 : S256x256.Slices ![1, 2] S254x254
  inb_S16x9_S16x1_0_5 : ∀ a, (![0, 5] : Fin 2 → Nat) a + S16x1.size a ≤ S16x9.size a
  slices_S256x256_o2_0_S254x254 : S256x256.Slices ![2, 0] S254x254
  inb_S16x9_S16x1_0_6 : ∀ a, (![0, 6] : Fin 2 → Nat) a + S16x1.size a ≤ S16x9.size a
  slices_S256x256_o2_1_S254x254 : S256x256.Slices ![2, 1] S254x254
  inb_S16x9_S16x1_0_7 : ∀ a, (![0, 7] : Fin 2 → Nat) a + S16x1.size a ≤ S16x9.size a
  slices_S256x256_o2_2_S254x254 : S256x256.Slices ![2, 2] S254x254
  inb_S16x9_S16x1_0_8 : ∀ a, (![0, 8] : Fin 2 → Nat) a + S16x1.size a ≤ S16x9.size a
  inb_S16x1_S16x1_0_0 : ∀ a, (![0, 0] : Fin 2 → Nat) a + S16x1.size a ≤ S16x1.size a
  inb_S1x16x254x254_S1x16x254x254_0_0_0_0 : ∀ a, (![0, 0, 0, 0] : Fin 4 → Nat) a + S1x16x254x254.size a ≤ S1x16x254x254.size a
  h_S1x16x254x254 : 0 < S1x16x254x254.numel
  shapeCasts_S1x16x254x254_S16x254x254 : S1x16x254x254.ShapeCasts S16x254x254
  shapeCasts_S16x254x254_S1x16x254x254 : S16x254x254.ShapeCasts S1x16x254x254
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S16x256x256.size a
  hwx0_0 : ∀ i : grid0.Coords, EltTy.bits .f32 = 32 ∨ (Rect.block (s := S16x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x9.size a ≤ S64x9.size a
  hwx0_1 : ∀ i : grid0.Coords, EltTy.bits .f32 = 32 ∨ (Rect.block (s := S64x9) S16x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S64x1.size a
  hwx0_2 : ∀ i : grid0.Coords, EltTy.bits .f32 = 32 ∨ (Rect.block (s := S64x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x254x254.size a ≤ S16x64x254x254.size a
  hwx0_3 : ∀ i : grid0.Coords, EltTy.bits .f32 = 32 ∨ (Rect.block (s := S16x64x254x254) S1x16x254x254.size (cc0_transform_3 i) (hinb0_3 i)).WholeWords (EltTy.packing .f32)

variable [Facts₀]

abbrev win0_0 : Pipeline.Window sig grid0 :=
  Pipeline.Window.ofSpec (Memref.whole main_v1) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x16x254x254.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x256x256 : Shape := ⟨4, ![16, 3, 256, 256]⟩
abbrev S64x3x3x3 : Shape := ⟨4, ![64, 3, 3, 3]⟩
abbrev S64 : Shape := ⟨1, ![64]⟩
abbrev S64x1x3x3 : Shape := ⟨4, ![64, 1, 3, 3]⟩
abbrev S64x3x3 : Shape := ⟨3, ![64, 3, 3]⟩
abbrev S64x9 : Shape := ⟨2, ![64, 9]⟩
abbrev S16x1x256x256 : Shape := ⟨4, ![16, 1, 256, 256]⟩
abbrev S16x256x256 : Shape := ⟨3, ![16, 256, 256]⟩
abbrev S16x254x254 : Shape := ⟨3, ![16, 254, 254]⟩
abbrev S16x254x254x1 : Shape := ⟨4, ![16, 254, 254, 1]⟩
abbrev S16x254x254x9 : Shape := ⟨4, ![16, 254, 254, 9]⟩
abbrev S16x254x254x64 : Shape := ⟨4, ![16, 254, 254, 64]⟩
abbrev S16x64x254x254 : Shape := ⟨4, ![16, 64, 254, 254]⟩
abbrev S1x64x1x1 : Shape := ⟨4, ![1, 64, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x3x256x256, .f32⟩
  | .hbm, ⟨1, _⟩ => ⟨S64x3x3x3, .f32⟩
  | .hbm, ⟨2, _⟩ => ⟨S64, .f32⟩
  | .hbm, ⟨3, _⟩ => ⟨S64x1x3x3, .f32⟩
  | .hbm, ⟨4, _⟩ => ⟨S64x3x3, .f32⟩
  | .hbm, ⟨5, _⟩ => ⟨S64x9, .f32⟩
  | .hbm, ⟨6, _⟩ => ⟨S16x1x256x256, .f32⟩
  | .hbm, ⟨7, _⟩ => ⟨S16x256x256, .f32⟩
  | .hbm, ⟨8, _⟩ => ⟨S16x254x254, .f32⟩
  | .hbm, ⟨9, _⟩ => ⟨S16x254x254, .f32⟩
  | .hbm, ⟨10, _⟩ => ⟨S16x254x254, .f32⟩
  | .hbm, ⟨11, _⟩ => ⟨S16x254x254, .f32⟩
  | .hbm, ⟨12, _⟩ => ⟨S16x254x254, .f32⟩
  | .hbm, ⟨13, _⟩ => ⟨S16x254x254, .f32⟩
  | .hbm, ⟨14, _⟩ => ⟨S16x254x254, .f32⟩
  | .hbm, ⟨15, _⟩ => ⟨S16x254x254, .f32⟩
  | .hbm, ⟨16, _⟩ => ⟨S16x254x254, .f32⟩
  | .hbm, ⟨17, _⟩ => ⟨S16x254x254x1, .f32⟩
  | .hbm, ⟨18, _⟩ => ⟨S16x254x254x1, .f32⟩
  | .hbm, ⟨19, _⟩ => ⟨S16x254x254x1, .f32⟩
  | .hbm, ⟨20, _⟩ => ⟨S16x254x254x1, .f32⟩
  | .hbm, ⟨21, _⟩ => ⟨S16x254x254x1, .f32⟩
  | .hbm, ⟨22, _⟩ => ⟨S16x254x254x1, .f32⟩
  | .hbm, ⟨23, _⟩ => ⟨S16x254x254x1, .f32⟩
  | .hbm, ⟨24, _⟩ => ⟨S16x254x254x1, .f32⟩
  | .hbm, ⟨25, _⟩ => ⟨S16x254x254x1, .f32⟩
  | .hbm, ⟨26, _⟩ => ⟨S16x254x254x9, .f32⟩
  | .hbm, ⟨27, _⟩ => ⟨S16x254x254x64, .f32⟩
  | .hbm, ⟨28, _⟩ => ⟨S16x64x254x254, .f32⟩
  | .hbm, ⟨29, _⟩ => ⟨S1x64x1x1, .f32⟩
  | .hbm, ⟨30, _⟩ => ⟨S16x64x254x254, .f32⟩
  | .hbm, ⟨31, _⟩ => ⟨S16x64x254x254, .f32⟩
  | _, _ => ⟨S16x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]

class Facts₀ : Prop where
  slices_S64x3x3x3_S64x1x3x3_0_2_0_0 : S64x3x3x3.Slices ![0, 2, 0, 0] S64x1x3x3
  shapeCasts_S64x1x3x3_S64x3x3 : S64x1x3x3.ShapeCasts S64x3x3
  shapeCasts_S64x3x3_S64x9 : S64x3x3.ShapeCasts S64x9
  slices_S16x3x256x256_S16x1x256x256_0_0_0_0 : S16x3x256x256.Slices ![0, 0, 0, 0] S16x1x256x256
  shapeCasts_S16x1x256x256_S16x256x256 : S16x1x256x256.ShapeCasts S16x256x256
  slices_S16x256x256_S16x254x254_0_0_0 : S16x256x256.Slices ![0, 0, 0] S16x254x254
  slices_S16x256x256_S16x254x254_0_0_1 : S16x256x256.Slices ![0, 0, 1] S16x254x254
  slices_S16x256x256_S16x254x254_0_0_2 : S16x256x256.Slices ![0, 0, 2] S16x254x254
  slices_S16x256x256_S16x254x254_0_1_0 : S16x256x256.Slices ![0, 1, 0] S16x254x254
  slices_S16x256x256_S16x254x254_0_1_1 : S16x256x256.Slices ![0, 1, 1] S16x254x254
  slices_S16x256x256_S16x254x254_0_1_2 : S16x256x256.Slices ![0, 1, 2] S16x254x254
  slices_S16x256x256_S16x254x254_0_2_0 : S16x256x256.Slices ![0, 2, 0] S16x254x254
  slices_S16x256x256_S16x254x254_0_2_1 : S16x256x256.Slices ![0, 2, 1] S16x254x254
  slices_S16x256x256_S16x254x254_0_2_2 : S16x256x256.Slices ![0, 2, 2] S16x254x254
  bcast_S16x254x254_S16x254x254x1_0_1_2 : S16x254x254.BroadcastsInDim S16x254x254x1 (![0, 1, 2] : Fin 3 → Fin S16x254x254x1.rank)
  concatenates_S16x254x254x1_S16x254x254x1_S16x254x254x1_S16x254x254x1_S16x254x254x1_S16x254x254x1_S16x254x254x1_S16x254x254x1_S16x254x254x1_S16x254x254x9_d3 : Shape.Concatenates [S16x254x254x1, S16x254x254x1, S16x254x254x1, S16x254x254x1, S16x254x254x1, S16x254x254x1, S16x254x254x1, S16x254x254x1, S16x254x254x1] S16x254x254x9 3
  transposes_S16x254x254x64_S16x64x254x254_0_3_1_2 : S16x254x254x64.Transposes [0, 3, 1, 2] S16x64x254x254
  bcast_S64_S1x64x1x1_1 : S64.BroadcastsInDim S1x64x1x1 (![1] : Fin 1 → Fin S1x64x1x1.rank)
  bcast_S1x64x1x1_S16x64x254x254_0_1_2_3 : S1x64x1x1.BroadcastsInDim S16x64x254x254 (![0, 1, 2, 3] : Fin 4 → Fin S16x64x254x254.rank)
  dot_S16x254x254x9_S64x9_S16x254x254x64_3_1_012_0_n_n_wf : DotDims.WF S16x254x254x9 S64x9 S16x254x254x64 [3] [1] [0, 1, 2] [0] [] []

variable [Facts₀]

def dot_S16x254x254x9_S64x9_S16x254x254x64_3_1_012_0_n_n : DotDims S16x254x254x9 S64x9 S16x254x254x64 where
  lhsContracting := [3]
  rhsContracting := [1]
  lhsNonContracting := [0, 1, 2]
  rhsNonContracting := [0]
  lhsBatch := []
  rhsBatch := []
  wf := dot_S16x254x254x9_S64x9_S16x254x254x64_3_1_012_0_n_n_wf

class Facts : Prop extends Facts₀ where

variable [Facts]
-- ==== Proof.ConvSpec.lean ====
/-
  The function both programs compute: a 3×3 "valid" convolution of ONE plane per image with 64 filters of nine taps,
  plus a bias per filter.

  For image `n`, filter `f` and output position `(h, w)` (254 × 254 of them in a 256 × 256 plane) the result is

      ( ∑ k < 9,  wt[f, k] · x[n, h + k / 3, w + k % 3] )  +  b[f]

  where `x : [16, 256, 256]` is the plane of each image, `wt : [64, 9]` the filters' taps (tap `k = 3a + c` sits at
  offset `(a, c)` of the 3 × 3 window) and `b : [64]` the bias. Everything is over the extended reals, where `+` and
  `·` are commutative and associative and `0` is neutral for `+` — the only laws the two programs' arrangements of
  this sum differ by — so no finiteness of the inputs is needed.
-/
import Idealize.ShloMosaic.PureOps.Ideal.Laws
import Idealize.ShloMosaic.Lib.ValueIdx

noncomputable section

namespace Cert.ConvSpec

open Idealize.ShloMosaic Idealize.ShloMosaic.ValueIdx

/-- The planes: 16 images of 256 × 256. -/
abbrev Planes : Shape := ⟨3, ![16, 256, 256]⟩
/-- The filters: 64 of nine taps. -/
abbrev Taps : Shape := ⟨2, ![64, 9]⟩
/-- One bias per filter. -/
abbrev Biases : Shape := ⟨1, ![64]⟩
/-- The result: 16 images × 64 filters × 254 × 254 positions. -/
abbrev Result : Shape := ⟨4, ![16, 64, 254, 254]⟩

/-- The pixel that tap `k = 3a + c` of output position `(h, w)` of image `n` reads: `(h + a, w + c)`. -/
abbrev pixel (n : Fin 16) (h w : Fin 254) (k : Fin 9) : Planes.Idx :=
  ix3 n (⟨h.val + k.val / 3, by have := h.isLt; have := k.isLt; omega⟩ : Fin 256)
    (⟨w.val + k.val % 3, by have := w.isLt; have := k.isLt; omega⟩ : Fin 256)

/-- The convolution at image `n`, filter `f`, position `(h, w)`. -/
def convAt (x : FVec Ideal Planes .f32) (wt : FVec Ideal Taps .f32) (b : FVec Ideal Biases .f32)
    (n : Fin 16) (f : Fin 64) (h w : Fin 254) : EReal :=
  (∑ k : Fin 9, wt (ix2 f k) * x (pixel n h w k)) + b (ix1 f)

/-- The convolution as one array. -/
def conv (x : FVec Ideal Planes .f32) (wt : FVec Ideal Taps .f32) (b : FVec Ideal Biases .f32) :
    FVec Ideal Result .f32 :=
  fun i => convAt x wt b (i 0) (i 1) (i 2) (i 3)

theorem conv_apply (x : FVec Ideal Planes .f32) (wt : FVec Ideal Taps .f32) (b : FVec Ideal Biases .f32)
    (n : Fin 16) (f : Fin 64) (h w : Fin 254) : conv x wt b (ix4 n f h w) = convAt x wt b n f h w := rfl

/-- Nine terms added one after the other onto zero are their sum: `0` is neutral, and a sum over `Fin 9` is its first
    eight terms and the last. -/
theorem add_nine {M : Type*} [AddCommMonoid M] (t : Fin 9 → M) :
    0 + t 0 + t 1 + t 2 + t 3 + t 4 + t 5 + t 6 + t 7 + t 8 = ∑ k : Fin 9, t k := by
  rw [Fin.sum_univ_castSucc, Fin.sum_univ_eight, zero_add]
  rfl

end Cert.ConvSpec

end
-- ==== Proof.KernelBlock.lean ====
/-
  What the kernel body leaves in its output block, read at an index.

  At a grid point the body holds one image's plane `X : [1, 256, 256]`, the nine taps of 16 filters `Wb : [16, 9]` and
  their biases `Bb : [16, 1]`. It starts from a [16, 254, 254] accumulator of zeros and, for each tap `k = 3a + c`,
  adds the product of column `k` of `Wb` (one value per filter, repeated over the positions) and the 254 × 254 window of
  the plane at offset `(a, c)` (repeated over the filters); then it adds the bias column and stores the result as the
  [1, 16, 254, 254] block. So at filter `f` and position `(h, w)` the block holds

      0 + Wb[f, 0] · X[0, h, w] + Wb[f, 1] · X[0, h, w + 1] + … + Wb[f, 8] · X[0, h + 2, w + 2] + Bb[f, 0],

  the nine products added one after the other: their sum (ConvSpec.add_nine) plus the bias.
-/
import proofs.«137176_j39230231281863_2_alg».proof.Proof.Gen.KernelIdeal.Frame
import proofs.«137176_j39230231281863_2_alg».proof.Proof.ConvSpec
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-- A 254 × 254 window cut out of a 256 × 256 plane starts at a row offset of at most 2, -/
theorem off_row {a c : Nat} (hs : S256x256.Slices ![a, c] S254x254) : a ≤ 2 := by
  have h : a + 254 ≤ 256 := hs.2 (0 : Fin 2)
  omega

/-- and at a column offset of at most 2. -/
theorem off_col {a c : Nat} (hs : S256x256.Slices ![a, c] S254x254) : c ≤ 2 := by
  have h : c + 254 ≤ 256 := hs.2 (1 : Fin 2)
  omega

/-- The pixel `(h + a, w + c)` of the block's one plane. -/
abbrev shifted (h w : Fin 254) (a c : Nat) (ha : a ≤ 2) (hc : c ≤ 2) : S1x256x256.Idx :=
  ix3 (0 : Fin 1) (⟨h.val + a, by have := h.isLt; omega⟩ : Fin 256) (⟨w.val + c, by have := w.isLt; omega⟩ : Fin 256)

/-- A column of 16 filter values, viewed [16, 1, 1] and broadcast over the 254 × 254 positions, reads at filter `f` and
    any position the column's entry `f`. -/
theorem filterColumn_apply (P : Vec Ideal S16x1 .f32) (h1 : S16x1.ShapeCasts S16x1) (h2 : S16x1.ShapeCasts S16x1x1)
    (h3 : S16x1x1.Broadcasts S16x254x254) (f : Fin 16) (h w : Fin 254) :
    broadcastTo S16x254x254 (shapeCast S16x1x1 (shapeCast S16x1 P h1) h2) h3 (ix3 f h w) = P (ix2 f (0 : Fin 1)) := by
  refine (broadcastTo_apply _ h3 (ix3 f h w) (ix3 f (0 : Fin 1) (0 : Fin 1)) (fun b => ?_)).trans ?_
  · match b with
    | ⟨0, _⟩ => show f.val = if (16 : Nat) = 1 then 0 else f.val; rw [if_neg (by decide)]
    | ⟨1, _⟩ => show 0 = if (1 : Nat) = 1 then 0 else h.val; rw [if_pos rfl]
    | ⟨2, _⟩ => show 0 = if (1 : Nat) = 1 then 0 else w.val; rw [if_pos rfl]
  refine (shapeCast_apply _ h2 (ix3 f (0 : Fin 1) (0 : Fin 1)) (ix2 f (0 : Fin 1)) ?_).trans ?_
  · rw [Shape.rowMajor_val_two, Shape.rowMajor_val_three]
    show f.val * 1 + 0 = (f.val * 1 + 0) * 1 + 0
    omega
  rw [shapeCast_self]

/-- The 254 × 254 window at offset `(a, c)` of the block's plane, viewed [1, 254, 254] and broadcast over the 16
    filters, reads at any filter and position `(h, w)` the plane's pixel `(h + a, w + c)`. -/
theorem window_apply (X : Vec Ideal S1x256x256 .f32) {a c : Nat} (h0 : S1x256x256.ShapeCasts S256x256)
    (hs : S256x256.Slices ![a, c] S254x254) (h4 : S254x254.ShapeCasts S1x254x254)
    (h5 : S1x254x254.Broadcasts S16x254x254) (f : Fin 16) (h w : Fin 254) :
    broadcastTo S16x254x254 (shapeCast S1x254x254 (extractStridedSlice S254x254 ![a, c] (shapeCast S256x256 X h0) hs) h4) h5
        (ix3 f h w)
      = X (shifted h w a c (off_row hs) (off_col hs)) := by
  have hh := h.isLt
  have hw := w.isLt
  have ha := off_row hs
  have hc := off_col hs
  refine (broadcastTo_apply _ h5 (ix3 f h w) (ix3 (0 : Fin 1) h w) (fun b => ?_)).trans ?_
  · match b with
    | ⟨0, _⟩ => show 0 = if (1 : Nat) = 1 then 0 else f.val; rw [if_pos rfl]
    | ⟨1, _⟩ => show h.val = if (254 : Nat) = 1 then 0 else h.val; rw [if_neg (by decide)]
    | ⟨2, _⟩ => show w.val = if (254 : Nat) = 1 then 0 else w.val; rw [if_neg (by decide)]
  refine (shapeCast_apply _ h4 (ix3 (0 : Fin 1) h w) (ix2 h w) ?_).trans ?_
  · rw [Shape.rowMajor_val_two, Shape.rowMajor_val_three]
    show h.val * 254 + w.val = (0 * 254 + h.val) * 254 + w.val
    omega
  refine (extractStridedSlice_apply ![a, c] _ hs (ix2 h w)
    (ix2 (⟨h.val + a, by omega⟩ : Fin 256) (⟨w.val + c, by omega⟩ : Fin 256)) (fun b => ?_)).trans ?_
  · match b with
    | ⟨0, _⟩ => show h.val + a = a + h.val; omega
    | ⟨1, _⟩ => show w.val + c = c + w.val; omega
  refine shapeCast_apply _ h0 _ _ ?_
  rw [Shape.rowMajor_val_three, Shape.rowMajor_val_two]
  show (0 * 256 + (h.val + a)) * 256 + (w.val + c) = (h.val + a) * 256 + (w.val + c)
  omega

/-- A load of column `k` of the block's 16 × 9 taps reads, at filter `f`, tap `k` of filter `f`. -/
theorem tapLoad_apply (Wb : Vec Ideal S16x9 .f32) (k : Fin 9)
    (inb : ∀ a, (![0, k.val] : Fin 2 → Nat) a + S16x1.size a ≤ S16x9.size a) (f : Fin 16) :
    View.ld Wb (Rect.unit (s := S16x9) ![0, k.val] S16x1.size inb) (ix2 f (0 : Fin 1)) = Wb (ix2 f k) := by
  show Wb ((Rect.unit (s := S16x9) ![0, k.val] S16x1.size inb).idx (ix2 f (0 : Fin 1))) = _
  congr 1
  funext b
  apply Fin.ext
  match b with
  | ⟨0, _⟩ => show 0 + 1 * f.val = f.val; omega
  | ⟨1, _⟩ => show k.val + 1 * 0 = k.val; omega

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- ONE TAP's term at filter `f` and position `(h, w)`: tap `k` of filter `f` times the plane's pixel at the window's
    offset from `(h, w)`. -/
theorem tap_apply (X : Vec Ideal S1x256x256 .f32) (Wb : Vec Ideal S16x9 .f32) (k : Fin 9)
    (inb : ∀ a, (![0, k.val] : Fin 2 → Nat) a + S16x1.size a ≤ S16x9.size a)
    (inb0 : ∀ a, (![0, 0, 0] : Fin 3 → Nat) a + S1x256x256.size a ≤ S1x256x256.size a) {a c : Nat}
    (h1 : S16x1.ShapeCasts S16x1) (h2 : S16x1.ShapeCasts S16x1x1) (h3 : S16x1x1.Broadcasts S16x254x254)
    (h0 : S1x256x256.ShapeCasts S256x256) (hs : S256x256.Slices ![a, c] S254x254)
    (h4 : S254x254.ShapeCasts S1x254x254) (h5 : S1x254x254.Broadcasts S16x254x254) (f : Fin 16) (h w : Fin 254) :
    broadcastTo S16x254x254 (shapeCast S16x1x1 (shapeCast S16x1
          (View.ld Wb (Rect.unit (s := S16x9) ![0, k.val] S16x1.size inb)) h1) h2) h3 (ix3 f h w)
        * broadcastTo S16x254x254 (shapeCast S1x254x254 (extractStridedSlice S254x254 ![a, c] (shapeCast S256x256
            (View.ld X (Rect.unit (s := S1x256x256) ![0, 0, 0] S1x256x256.size inb0)) h0) hs) h4) h5 (ix3 f h w)
      = Wb (ix2 f k) * X (shifted h w a c (off_row hs) (off_col hs)) := by
  refine congrArg₂ (· * ·) ((filterColumn_apply _ h1 h2 h3 f h w).trans (tapLoad_apply Wb k inb f)) ?_
  rw [View.ld_unit_zero zeros3]
  exact window_apply X h0 hs h4 h5 f h w

/-- The pixel of the block's plane that tap `k` of position `(h, w)` reads. -/
abbrev blockPixel (h w : Fin 254) (k : Fin 9) : S1x256x256.Idx :=
  ix3 (0 : Fin 1) (⟨h.val + k.val / 3, by have := h.isLt; have := k.isLt; omega⟩ : Fin 256)
    (⟨w.val + k.val % 3, by have := w.isLt; have := k.isLt; omega⟩ : Fin 256)

/-- THE BLOCK the body leaves, at filter `f` (of the block's 16) and position `(h, w)`: the sum over the nine taps of
    the filter's tap times the pixel the tap reads, plus the filter's bias. -/
theorem block_apply (X : Vec Ideal S1x256x256 .f32) (Wb : Vec Ideal S16x9 .f32) (Bb : Vec Ideal S16x1 .f32)
    (u : Fin 1) (f : Fin 16) (h w : Fin 254) :
    out0_3 X Wb Bb (ix4 u f h w)
      = (∑ k : Fin 9, Wb (ix2 f k) * X (blockPixel h w k)) + Bb (ix2 f (0 : Fin 1)) := by
  unfold out0_3
  rw [View.canon_unit_zero zeros4]
  unfold k0_pay1
  refine (shapeCast_apply _ _ (ix4 u f h w) (ix3 f h w) ?_).trans ?_
  · rw [Shape.rowMajor_val_three, Shape.rowMajor_val_four]
    show (f.val * 254 + h.val) * 254 + w.val = ((u.val * 16 + f.val) * 254 + h.val) * 254 + w.val
    have := u.isLt
    omega
  unfold k0_pay6 k0_pay3 k0_pay4 k0_pay5 k0_pay2
  simp only [addf_apply, mulf_apply, broadcast_apply]
  rw [← Cert.ConvSpec.add_nine]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32
      (tap_apply X Wb 0 _ _ _ _ _ _ _ _ _ f h w))
      (tap_apply X Wb 1 _ _ _ _ _ _ _ _ _ f h w))
      (tap_apply X Wb 2 _ _ _ _ _ _ _ _ _ f h w))
      (tap_apply X Wb 3 _ _ _ _ _ _ _ _ _ f h w))
      (tap_apply X Wb 4 _ _ _ _ _ _ _ _ _ f h w))
      (tap_apply X Wb 5 _ _ _ _ _ _ _ _ _ f h w))
      (tap_apply X Wb 6 _ _ _ _ _ _ _ _ _ f h w))
      (tap_apply X Wb 7 _ _ _ _ _ _ _ _ _ f h w))
      (tap_apply X Wb 8 _ _ _ _ _ _ _ _ _ f h w))
    ((filterColumn_apply _ _ _ _ f h w).trans (congrFun (View.ld_unit_zero zeros2 _ Bb) _))

end Cert.KernelIdeal.Block

end
-- ==== Proof.KernelValue.lean ====
/-
  The kernel's result array is the convolution of ConvSpec.lean, of the arrays its pipeline reads.

  The grid has a point for every image `n < 16` and every group `g < 4` of 16 filters. At that point the pipeline
  hands the body plane `n` (block `(n, 0, 0)` of the [16, 256, 256] planes), rows `16 g … 16 g + 15` of the [64, 9] taps
  and of the [64, 1] bias column, and writes the body's [1, 16, 254, 254] block back as block `(n, g, 0, 0)` of the
  [16, 64, 254, 254] result. By KernelBlock.lean the block's entry `(f, h, w)` is the convolution at image `n`, filter
  `16 g + f` and position `(h, w)`; the blocks are disjoint and every index of the result lies in exactly the block of
  its image and its filter's group, so the array after the run is the convolution everywhere.
-/
import proofs.«137176_j39230231281863_2_alg».proof.Proof.Gen.KernelIdeal.Frame
import proofs.«137176_j39230231281863_2_alg».proof.Proof.KernelBlock
import proofs.«137176_j39230231281863_2_alg».proof.Proof.ConvSpec
import Idealize.ShloMosaic.Lib.Pipeline.Value
import Idealize.ShloMosaic.Lib.ValueIdx

noncomputable section

namespace Cert.KernelIdeal.ConvValue

open Cert.KernelIdeal Cert.KernelIdeal.Gen Cert.ConvSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The planes as the region finds them: the array the first window stages. -/
abbrev planesOf (c : Dev nD) : FVec Ideal Planes .f32 := V m c main_v1
/-- The taps as the region finds them: the array the second window stages. -/
abbrev tapsOf (c : Dev nD) : FVec Ideal Taps .f32 := V m c main_v4
/-- The [64, 1] bias column as the region finds it: the array the third window stages. -/
abbrev biasColumnOf (c : Dev nD) : FVec Ideal (⟨2, ![64, 1]⟩ : Shape) .f32 := V m c main_v5
/-- The bias, one value per filter, read off that column. -/
abbrev biasOf (c : Dev nD) : FVec Ideal Biases .f32 := fun j => biasColumnOf m c (ix2 (j 0) (0 : Fin 1))

/-- The index maps, decided over the 64 grid points: the plane's block index is the result's image index, the taps'
    and the bias's row-block index is the result's filter-group index, every other block index is 0, and the result's
    image and group indices are below 16 and 4. -/
theorem index_facts : ∀ t : Fin cfg0.N,
    win0_0.index t (0 : Fin 3) = win0_3.index t (0 : Fin 4) ∧ win0_0.index t (1 : Fin 3) = 0
    ∧ win0_0.index t (2 : Fin 3) = 0
    ∧ win0_1.index t (0 : Fin 2) = win0_3.index t (1 : Fin 4) ∧ win0_1.index t (1 : Fin 2) = 0
    ∧ win0_2.index t (0 : Fin 2) = win0_3.index t (1 : Fin 4) ∧ win0_2.index t (1 : Fin 2) = 0
    ∧ win0_3.index t (2 : Fin 4) = 0 ∧ win0_3.index t (3 : Fin 4) = 0
    ∧ win0_3.index t (0 : Fin 4) < 16 ∧ win0_3.index t (1 : Fin 4) < 4 :=
  (by decide +kernel : ∀ t : Fin grid0.N, _)

/-- Every image and filter group is some grid point's. -/
theorem index_onto : ∀ (n : Fin 16) (g : Fin 4), ∃ t : Fin cfg0.N, win0_3.index t = ![n.val, g.val, 0, 0] :=
  (by decide +kernel : ∀ (n : Fin 16) (g : Fin 4), ∃ t : Fin grid0.N, win0_3.index t = ![n.val, g.val, 0, 0])

/-- WHAT POINT `t` WRITES BACK is block `t` of the convolution of the planes, the taps and the bias as the region
    finds them. -/
theorem flushed_eq (c : Dev nD) (t : Fin cfg0.N) :
    (dats m 0 c).flushed 3 t = ((cfg0.win 3).blk t).view.read (Elt Ideal)
      (conv (planesOf m c) (tapsOf m c) (biasOf m c)) := by
  show (cfg0.win 3).cut (grid0.coords t) ((dats m 0 c).after 3 t) = _
  rw [after0_3]
  obtain ⟨e0, e1, e2, e3, e4, e5, e6, e7, e8, b0, b1⟩ := index_facts t
  funext y
  obtain ⟨u, f, h, w, rfl⟩ : ∃ (u : Fin 1) (f : Fin 16) (h w : Fin 254), y = ix4 u f h w :=
    ⟨y 0, y 1, y 2, y 3, eq_ix4 y⟩
  have hu := u.isLt
  have hf := f.isLt
  have hh := h.isLt
  have hw := w.isLt
  show out0_3 (iblk m c 0 t) (iblk m c 1 t) (iblk m c 2 t) (ix4 u f h w)
    = conv (planesOf m c) (tapsOf m c) (biasOf m c) (((cfg0.win 3).blk t).view.emb (ix4 u f h w))
  refine (Cert.KernelIdeal.Block.block_apply (iblk m c 0 t) (iblk m c 1 t) (iblk m c 2 t) u f h w).trans ?_
  show (∑ k : Fin 9, tapsOf m c (((cfg0.win 1).blk t).view.emb (ix2 f k))
        * planesOf m c (((cfg0.win 0).blk t).view.emb (Cert.KernelIdeal.Block.blockPixel h w k)))
      + biasColumnOf m c (((cfg0.win 2).blk t).view.emb (ix2 f (0 : Fin 1)))
    = (∑ k : Fin 9, tapsOf m c (ix2 ((((cfg0.win 3).blk t).view.emb (ix4 u f h w)) 1) k)
        * planesOf m c (pixel ((((cfg0.win 3).blk t).view.emb (ix4 u f h w)) 0)
            ((((cfg0.win 3).blk t).view.emb (ix4 u f h w)) 2) ((((cfg0.win 3).blk t).view.emb (ix4 u f h w)) 3) k))
      + biasColumnOf m c (ix2 ((((cfg0.win 3).blk t).view.emb (ix4 u f h w)) 1) (0 : Fin 1))
  refine congrArg₂ (· + ·) (Finset.sum_congr rfl fun k _ => congrArg₂ (· * ·)
    (congrArg (tapsOf m c) ?_) (congrArg (planesOf m c) ?_)) (congrArg (biasColumnOf m c) ?_)
  · funext a; apply Fin.ext
    match a with
    | ⟨0, _⟩ =>
      show win0_1.index t (0 : Fin 2) * 16 + 1 * f.val = win0_3.index t (1 : Fin 4) * 16 + 1 * f.val
      omega
    | ⟨1, _⟩ =>
      show win0_1.index t (1 : Fin 2) * 9 + 1 * k.val = k.val
      omega
  · have hk := k.isLt
    funext a; apply Fin.ext
    match a with
    | ⟨0, _⟩ =>
      show win0_0.index t (0 : Fin 3) * 1 + 1 * 0 = win0_3.index t (0 : Fin 4) * 1 + 1 * u.val
      omega
    | ⟨1, _⟩ =>
      show win0_0.index t (1 : Fin 3) * 256 + 1 * (h.val + k.val / 3)
        = win0_3.index t (2 : Fin 4) * 254 + 1 * h.val + k.val / 3
      omega
    | ⟨2, _⟩ =>
      show win0_0.index t (2 : Fin 3) * 256 + 1 * (w.val + k.val % 3)
        = win0_3.index t (3 : Fin 4) * 254 + 1 * w.val + k.val % 3
      omega
  · funext a; apply Fin.ext
    match a with
    | ⟨0, _⟩ =>
      show win0_2.index t (0 : Fin 2) * 16 + 1 * f.val = win0_3.index t (1 : Fin 4) * 16 + 1 * f.val
      omega
    | ⟨1, _⟩ =>
      show win0_2.index t (1 : Fin 2) * 1 + 1 * 0 = 0
      omega

/-- An index of the result is in point `t`'s block iff each coordinate is in the block's range on its axis. -/
theorem mem_blk (t : Fin cfg0.N) (i : S16x64x254x254.Idx) :
    i ∈ ((cfg0.win 3).blk t).view.set ↔ ∀ a : Fin 4, win0_3.index t a * S1x16x254x254.size a ≤ (i a).val
      ∧ (i a).val < win0_3.index t a * S1x16x254x254.size a + S1x16x254x254.size a := by
  show i ∈ ((View.whole main_v6).slice (win0_3.rect t)).set ↔ _
  rw [View.set_slice_whole, Rect.mem_set_unit]
  exact Iff.rfl

/-- EVERY INDEX of the result is in the block of its image and of its filter's group of 16. -/
theorem covered (i : S16x64x254x254.Idx) :
    ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 254 := (i 2).isLt
  have hi3 : (i 3).val < 254 := (i 3).isLt
  obtain ⟨t, ht⟩ := index_onto ⟨(i 0).val, hi0⟩ ⟨(i 1).val / 16, by omega⟩
  have q0 : win0_3.index t (0 : Fin 4) = (i 0).val := congrFun ht 0
  have q1 : win0_3.index t (1 : Fin 4) = (i 1).val / 16 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ =>
    show win0_3.index t (0 : Fin 4) * 1 ≤ (i 0).val ∧ (i 0).val < win0_3.index t (0 : Fin 4) * 1 + 1
    omega
  | ⟨1, _⟩ =>
    show win0_3.index t (1 : Fin 4) * 16 ≤ (i 1).val ∧ (i 1).val < win0_3.index t (1 : Fin 4) * 16 + 16
    omega
  | ⟨2, _⟩ =>
    show win0_3.index t (2 : Fin 4) * 254 ≤ (i 2).val ∧ (i 2).val < win0_3.index t (2 : Fin 4) * 254 + 254
    omega
  | ⟨3, _⟩ =>
    show win0_3.index t (3 : Fin 4) * 254 ≤ (i 3).val ∧ (i 3).val < win0_3.index t (3 : Fin 4) * 254 + 254
    omega

/-- THE RESULT ARRAY after the run is the convolution of the planes, the taps and the bias the region found. -/
theorem final (c : Dev nD) :
    (dats m 0 c).arrAt 3 cfg0.N = conv (planesOf m c) (tapsOf m c) (biasOf m c) :=
  (dats m 0 c).arrAt_eq_of_cover 3 _ (fun t _ => flushed_eq m c t) covered

/-- THE RUN: every weakly fair execution ends with the result at that convolution and the arguments unchanged. -/
theorem run : θ_run defs (onTc (τ := τ) (main (F := Ideal))) ⟨m, fun _ => 0, ρ⟩ fun r => ∀ c : Dev nD,
      r.2.mem ((c : Thread nD τ).loc main_v6) = conv (planesOf m c) (tapsOf m c) (biasOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.ConvValue

end
-- ==== Proof.RefConv.lean ====
/-
  The reference computes the convolution of ConvSpec.lean.

  It cuts the nine 254 × 254 windows of each image's plane at the offsets `(a, c)`, `a, c < 3`, stacks them on a new
  last axis (the patches: entry `k = 3a + c` of position `(h, w)` is the pixel `(h + a, w + c)`), contracts that axis
  with the filters' taps — at image `n`, position `(h, w)` and filter `f` the sum over `k` of patch `k` times tap `k`
  of `f` —, moves the filter axis to second place and adds the bias of filter `f` at every position. Index by index
  that is `ConvSpec.conv` of the planes, the taps and the bias, the factors of each product in the other order.
-/
import proofs.«137176_j39230231281863_2_alg».proof.Proof.Gen.ReferenceIdeal.Read
import proofs.«137176_j39230231281863_2_alg».proof.Proof.ConvSpec

noncomputable section

namespace Cert.ReferenceIdeal.RefValue

open Cert.ReferenceIdeal Cert.ReferenceIdeal.Gen Cert.ReferenceIdeal.Read Cert.ConvSpec
open Idealize.ShloMosaic Idealize.ShloMosaic.ValueIdx

/-- A 254 × 254 window of every plane leaves the plane's rows from a row offset of at most 2, -/
theorem off_row {a c : Nat} (hs : S16x256x256.Slices ![0, a, c] S16x254x254) : a ≤ 2 := by
  have h : a + 254 ≤ 256 := hs.2 (1 : Fin 3)
  omega

/-- and its columns from a column offset of at most 2. -/
theorem off_col {a c : Nat} (hs : S16x256x256.Slices ![0, a, c] S16x254x254) : c ≤ 2 := by
  have h : c + 254 ≤ 256 := hs.2 (2 : Fin 3)
  omega

/-- The window of the planes at offset `(a, c)`, given a last axis of extent one, reads at `(n, h, w, 0)` the pixel
    `(h + a, w + c)` of image `n`. -/
theorem shiftedPlane_apply (y : FVec Ideal S16x256x256 .f32) {a c : Nat} (hs : S16x256x256.Slices ![0, a, c] S16x254x254)
    (n : Fin 16) (h w : Fin 254) :
    broadcastInDim S16x254x254x1 ![0, 1, 2] bcast_S16x254x254_S16x254x254x1_0_1_2
        (extractStridedSlice S16x254x254 ![0, a, c] y hs) (ix4 n h w (0 : Fin 1))
      = y (ix3 n (⟨h.val + a, by have := h.isLt; have := off_row hs; omega⟩ : Fin 256)
          (⟨w.val + c, by have := w.isLt; have := off_col hs; omega⟩ : Fin 256)) := by
  have hh := h.isLt
  have hw := w.isLt
  have ha := off_row hs
  have hc := off_col hs
  refine (broadcastInDim_apply _ bcast_S16x254x254_S16x254x254x1_0_1_2 _ (ix4 n h w (0 : Fin 1)) (ix3 n h w)
    (fun b => ?_)).trans ?_
  · match b with
    | ⟨0, _⟩ => show n.val = if (16 : Nat) = 1 then 0 else n.val; rw [if_neg (by decide)]
    | ⟨1, _⟩ => show h.val = if (254 : Nat) = 1 then 0 else h.val; rw [if_neg (by decide)]
    | ⟨2, _⟩ => show w.val = if (254 : Nat) = 1 then 0 else w.val; rw [if_neg (by decide)]
  refine extractStridedSlice_apply ![0, a, c] y hs (ix3 n h w) _ (fun b => ?_)
  match b with
  | ⟨0, _⟩ => show n.val = 0 + n.val; omega
  | ⟨1, _⟩ => show h.val + a = a + h.val; omega
  | ⟨2, _⟩ => show w.val + c = c + w.val; omega

/-- Off the stacking axis an entry of the stack and the entry of the piece it comes from have the same coordinates. -/
theorem stack_offAxis (n : Fin 16) (h w : Fin 254) (k : Fin 9) :
    ∀ b : Fin S16x254x254x1.rank, b.cast (rfl : S16x254x254x1.rank = S16x254x254x9.rank) ≠ (3 : Fin 4) →
      ((ix4 n h w (0 : Fin 1) : S16x254x254x1.Idx) b).val
        = ((ix4 n h w k : S16x254x254x9.Idx) (b.cast (rfl : S16x254x254x1.rank = S16x254x254x9.rank))).val := by
  intro b hb
  match b with
  | ⟨0, _⟩ => rfl
  | ⟨1, _⟩ => rfl
  | ⟨2, _⟩ => rfl
  | ⟨3, _⟩ => exact absurd rfl hb

/-- Entry 0 of the stack is the window at offset `(0, 0)`. -/
theorem patch0_apply (a0 : (⟨S16x3x256x256, .f32⟩ : BufTy).Contents (Elt Ideal)) (n : Fin 16) (h w : Fin 254) :
    val_main_v23 (F := Ideal) a0 (ix4 n h w (⟨0, by decide⟩ : Fin 9))
      = val_main_v4 (F := Ideal) a0 (pixel n h w ⟨0, by decide⟩) := by
  unfold val_main_v23
  refine (concatenate_apply_piece (3 : Fin 4) _ _ (ix4 n h w (⟨0, by decide⟩ : Fin 9)) 0 ?_ S16x254x254x1
    (val_main_v14 (F := Ideal) a0) ?_ rfl 0 ?_ (ix4 n h w (0 : Fin 1)) (stack_offAxis n h w ⟨0, by decide⟩) ?_).trans ?_
  · simp
  · rfl
  · rfl
  · rfl
  · unfold val_main_v14 val_main_v5
    exact shiftedPlane_apply (a := 0) (c := 0) _ _ n h w

/-- Entry 1 of the stack is the window at offset `(0, 1)`. -/
theorem patch1_apply (a0 : (⟨S16x3x256x256, .f32⟩ : BufTy).Contents (Elt Ideal)) (n : Fin 16) (h w : Fin 254) :
    val_main_v23 (F := Ideal) a0 (ix4 n h w (⟨1, by decide⟩ : Fin 9))
      = val_main_v4 (F := Ideal) a0 (pixel n h w ⟨1, by decide⟩) := by
  unfold val_main_v23
  refine (concatenate_apply_piece (3 : Fin 4) _ _ (ix4 n h w (⟨1, by decide⟩ : Fin 9)) 1 ?_ S16x254x254x1
    (val_main_v15 (F := Ideal) a0) ?_ rfl 1 ?_ (ix4 n h w (0 : Fin 1)) (stack_offAxis n h w ⟨1, by decide⟩) ?_).trans ?_
  · simp
  · rfl
  · rfl
  · rfl
  · unfold val_main_v15 val_main_v6
    exact shiftedPlane_apply (a := 0) (c := 1) _ _ n h w

/-- Entry 2 of the stack is the window at offset `(0, 2)`. -/
theorem patch2_apply (a0 : (⟨S16x3x256x256, .f32⟩ : BufTy).Contents (Elt Ideal)) (n : Fin 16) (h w : Fin 254) :
    val_main_v23 (F := Ideal) a0 (ix4 n h w (⟨2, by decide⟩ : Fin 9))
      = val_main_v4 (F := Ideal) a0 (pixel n h w ⟨2, by decide⟩) := by
  unfold val_main_v23
  refine (concatenate_apply_piece (3 : Fin 4) _ _ (ix4 n h w (⟨2, by decide⟩ : Fin 9)) 2 ?_ S16x254x254x1
    (val_main_v16 (F := Ideal) a0) ?_ rfl 2 ?_ (ix4 n h w (0 : Fin 1)) (stack_offAxis n h w ⟨2, by decide⟩) ?_).trans ?_
  · simp
  · rfl
  · rfl
  · rfl
  · unfold val_main_v16 val_main_v7
    exact shiftedPlane_apply (a := 0) (c := 2) _ _ n h w

/-- Entry 3 of the stack is the window at offset `(1, 0)`. -/
theorem patch3_apply (a0 : (⟨S16x3x256x256, .f32⟩ : BufTy).Contents (Elt Ideal)) (n : Fin 16) (h w : Fin 254) :
    val_main_v23 (F := Ideal) a0 (ix4 n h w (⟨3, by decide⟩ : Fin 9))
      = val_main_v4 (F := Ideal) a0 (pixel n h w ⟨3, by decide⟩) := by
  unfold val_main_v23
  refine (concatenate_apply_piece (3 : Fin 4) _ _ (ix4 n h w (⟨3, by decide⟩ : Fin 9)) 3 ?_ S16x254x254x1
    (val_main_v17 (F := Ideal) a0) ?_ rfl 3 ?_ (ix4 n h w (0 : Fin 1)) (stack_offAxis n h w ⟨3, by decide⟩) ?_).trans ?_
  · simp
  · rfl
  · rfl
  · rfl
  · unfold val_main_v17 val_main_v8
    exact shiftedPlane_apply (a := 1) (c := 0) _ _ n h w

/-- Entry 4 of the stack is the window at offset `(1, 1)`. -/
theorem patch4_apply (a0 : (⟨S16x3x256x256, .f32⟩ : BufTy).Contents (Elt Ideal)) (n : Fin 16) (h w : Fin 254) :
    val_main_v23 (F := Ideal) a0 (ix4 n h w (⟨4, by decide⟩ : Fin 9))
      = val_main_v4 (F := Ideal) a0 (pixel n h w ⟨4, by decide⟩) := by
  unfold val_main_v23
  refine (concatenate_apply_piece (3 : Fin 4) _ _ (ix4 n h w (⟨4, by decide⟩ : Fin 9)) 4 ?_ S16x254x254x1
    (val_main_v18 (F := Ideal) a0) ?_ rfl 4 ?_ (ix4 n h w (0 : Fin 1)) (stack_offAxis n h w ⟨4, by decide⟩) ?_).trans ?_
  · simp
  · rfl
  · rfl
  · rfl
  · unfold val_main_v18 val_main_v9
    exact shiftedPlane_apply (a := 1) (c := 1) _ _ n h w

/-- Entry 5 of the stack is the window at offset `(1, 2)`. -/
theorem patch5_apply (a0 : (⟨S16x3x256x256, .f32⟩ : BufTy).Contents (Elt Ideal)) (n : Fin 16) (h w : Fin 254) :
    val_main_v23 (F := Ideal) a0 (ix4 n h w (⟨5, by decide⟩ : Fin 9))
      = val_main_v4 (F := Ideal) a0 (pixel n h w ⟨5, by decide⟩) := by
  unfold val_main_v23
  refine (concatenate_apply_piece (3 : Fin 4) _ _ (ix4 n h w (⟨5, by decide⟩ : Fin 9)) 5 ?_ S16x254x254x1
    (val_main_v19 (F := Ideal) a0) ?_ rfl 5 ?_ (ix4 n h w (0 : Fin 1)) (stack_offAxis n h w ⟨5, by decide⟩) ?_).trans ?_
  · simp
  · rfl
  · rfl
  · rfl
  · unfold val_main_v19 val_main_v10
    exact shiftedPlane_apply (a := 1) (c := 2) _ _ n h w

/-- Entry 6 of the stack is the window at offset `(2, 0)`. -/
theorem patch6_apply (a0 : (⟨S16x3x256x256, .f32⟩ : BufTy).Contents (Elt Ideal)) (n : Fin 16) (h w : Fin 254) :
    val_main_v23 (F := Ideal) a0 (ix4 n h w (⟨6, by decide⟩ : Fin 9))
      = val_main_v4 (F := Ideal) a0 (pixel n h w ⟨6, by decide⟩) := by
  unfold val_main_v23
  refine (concatenate_apply_piece (3 : Fin 4) _ _ (ix4 n h w (⟨6, by decide⟩ : Fin 9)) 6 ?_ S16x254x254x1
    (val_main_v20 (F := Ideal) a0) ?_ rfl 6 ?_ (ix4 n h w (0 : Fin 1)) (stack_offAxis n h w ⟨6, by decide⟩) ?_).trans ?_
  · simp
  · rfl
  · rfl
  · rfl
  · unfold val_main_v20 val_main_v11
    exact shiftedPlane_apply (a := 2) (c := 0) _ _ n h w

/-- Entry 7 of the stack is the window at offset `(2, 1)`. -/
theorem patch7_apply (a0 : (⟨S16x3x256x256, .f32⟩ : BufTy).Contents (Elt Ideal)) (n : Fin 16) (h w : Fin 254) :
    val_main_v23 (F := Ideal) a0 (ix4 n h w (⟨7, by decide⟩ : Fin 9))
      = val_main_v4 (F := Ideal) a0 (pixel n h w ⟨7, by decide⟩) := by
  unfold val_main_v23
  refine (concatenate_apply_piece (3 : Fin 4) _ _ (ix4 n h w (⟨7, by decide⟩ : Fin 9)) 7 ?_ S16x254x254x1
    (val_main_v21 (F := Ideal) a0) ?_ rfl 7 ?_ (ix4 n h w (0 : Fin 1)) (stack_offAxis n h w ⟨7, by decide⟩) ?_).trans ?_
  · simp
  · rfl
  · rfl
  · rfl
  · unfold val_main_v21 val_main_v12
    exact shiftedPlane_apply (a := 2) (c := 1) _ _ n h w

/-- Entry 8 of the stack is the window at offset `(2, 2)`. -/
theorem patch8_apply (a0 : (⟨S16x3x256x256, .f32⟩ : BufTy).Contents (Elt Ideal)) (n : Fin 16) (h w : Fin 254) :
    val_main_v23 (F := Ideal) a0 (ix4 n h w (⟨8, by decide⟩ : Fin 9))
      = val_main_v4 (F := Ideal) a0 (pixel n h w ⟨8, by decide⟩) := by
  unfold val_main_v23
  refine (concatenate_apply_piece (3 : Fin 4) _ _ (ix4 n h w (⟨8, by decide⟩ : Fin 9)) 8 ?_ S16x254x254x1
    (val_main_v22 (F := Ideal) a0) ?_ rfl 8 ?_ (ix4 n h w (0 : Fin 1)) (stack_offAxis n h w ⟨8, by decide⟩) ?_).trans ?_
  · simp
  · rfl
  · rfl
  · rfl
  · unfold val_main_v22 val_main_v13
    exact shiftedPlane_apply (a := 2) (c := 2) _ _ n h w

/-- THE PATCHES: entry `k` of the stack of the nine windows at image `n` and position `(h, w)` is the pixel tap `k`
    reads there — the stack's piece `k` is the window at offset `(k / 3, k % 3)`. -/
theorem patches_apply (a0 : (⟨S16x3x256x256, .f32⟩ : BufTy).Contents (Elt Ideal)) (n : Fin 16) (h w : Fin 254) (k : Fin 9) :
    val_main_v23 (F := Ideal) a0 (ix4 n h w k) = val_main_v4 (F := Ideal) a0 (pixel n h w k) := by
  match k with
  | ⟨0, _⟩ => exact patch0_apply a0 n h w
  | ⟨1, _⟩ => exact patch1_apply a0 n h w
  | ⟨2, _⟩ => exact patch2_apply a0 n h w
  | ⟨3, _⟩ => exact patch3_apply a0 n h w
  | ⟨4, _⟩ => exact patch4_apply a0 n h w
  | ⟨5, _⟩ => exact patch5_apply a0 n h w
  | ⟨6, _⟩ => exact patch6_apply a0 n h w
  | ⟨7, _⟩ => exact patch7_apply a0 n h w
  | ⟨8, _⟩ => exact patch8_apply a0 n h w

/-- THE REFERENCE'S RESULT, as a function of its three arguments, is the convolution of the planes and the taps its
    first operations cut out of the arguments, and the bias. -/
theorem result_eq (a0 : (⟨S16x3x256x256, .f32⟩ : BufTy).Contents (Elt Ideal))
    (a1 : (⟨S64x3x3x3, .f32⟩ : BufTy).Contents (Elt Ideal)) (a2 : (⟨S64, .f32⟩ : BufTy).Contents (Elt Ideal)) :
    val_main_v28 (F := Ideal) a0 a1 a2 = conv (val_main_v4 (F := Ideal) a0) (val_main_v2 (F := Ideal) a1) a2 := by
  funext i
  obtain ⟨n, f, h, w, rfl⟩ : ∃ (n : Fin 16) (f : Fin 64) (h w : Fin 254), i = ix4 n f h w :=
    ⟨i 0, i 1, i 2, i 3, eq_ix4 i⟩
  rw [val_main_v28_apply, val_main_v25_apply, val_main_v24_apply, val_main_v27_apply, val_main_v26_apply, conv_apply]
  unfold convAt
  show _ + _ = _ + _
  refine congrArg₂ (· + ·) (Finset.sum_congr rfl fun k _ => ?_) (congrArg a2 ?_)
  · rw [mul_comm]
    refine congrArg₂ (· * ·) (congrArg (val_main_v2 (F := Ideal) a1) ?_)
      ((congrArg (val_main_v23 (F := Ideal) a0) ?_).trans (patches_apply a0 n h w k))
    · funext b
      match b with
      | ⟨0, _⟩ => rfl
      | ⟨1, _⟩ => rfl
    · funext b
      match b with
      | ⟨0, _⟩ => rfl
      | ⟨1, _⟩ => rfl
      | ⟨2, _⟩ => rfl
      | ⟨3, _⟩ => rfl
  · funext b
    match b with
    | ⟨0, _⟩ => rfl

end Cert.ReferenceIdeal.RefValue

end
-- ==== Proof.HostPrelude.lean ====
/-
  The arrays the kernel's pipeline reads are the reference's own planes and taps, and the bias.

  Before its region the kernel's program cuts plane 0 out of every image ([16, 3, 256, 256] → [16, 256, 256]), cuts the
  taps of input channel 2 out of every filter and lays them out [64, 9], and views the [64] bias as a [64, 1] column.
  The reference's first operations are the same slice and the same reshapes of the same arguments, so the planes and
  the taps are the same terms on both sides and are never opened; the column's entry `(f, 0)` is the bias's entry `f`.
-/
import proofs.«137176_j39230231281863_2_alg».proof.Proof.Gen.KernelIdeal.Frame
import proofs.«137176_j39230231281863_2_alg».proof.Proof.Gen.ReferenceIdeal.Read
import proofs.«137176_j39230231281863_2_alg».proof.Proof.KernelValue
import Idealize.ShloMosaic.Lib.StableHlo.Run
import Idealize.ShloMosaic.Lib.Pipeline.Value
import Idealize.ShloMosaic.Lib.ValueIdx

noncomputable section

namespace Cert.KernelIdeal.ConvValue

open Cert.KernelIdeal Cert.KernelIdeal.Gen Cert.ConvSpec
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The planes the region finds are the reference's planes of the first argument. -/
theorem planes_eq (c : Dev nD) :
    planesOf m c = Cert.ReferenceIdeal.Read.val_main_v4 (F := Ideal) (m ((c : Thread nD τ).loc main_arg0)) := by
  dsimp only [planesOf, Gen.V, Gen.hostOps0]
  after_results
  rfl

/-- The taps the region finds are the reference's taps of the second argument. -/
theorem taps_eq (c : Dev nD) :
    tapsOf m c = Cert.ReferenceIdeal.Read.val_main_v2 (F := Ideal) (m ((c : Thread nD τ).loc main_arg1)) := by
  dsimp only [tapsOf, Gen.V, Gen.hostOps0]
  after_results
  rfl

/-- The bias column the region finds is the third argument viewed [64, 1]. -/
theorem biasColumn_eq (c : Dev nD) :
    biasColumnOf m c = shapeCast S64x1 (m ((c : Thread nD τ).loc main_arg2)) shapeCasts_S64_S64x1 := by
  dsimp only [biasColumnOf, Gen.V, Gen.hostOps0]
  after_results
  rfl

/-- So the bias read off the column is the third argument. -/
theorem bias_eq (c : Dev nD) : biasOf m c = m ((c : Thread nD τ).loc main_arg2) := by
  funext j
  obtain ⟨f, rfl⟩ : ∃ f : Fin 64, j = ix1 f := ⟨j 0, eq_ix1 j⟩
  show biasColumnOf m c (ix2 f (0 : Fin 1)) = _
  rw [biasColumn_eq]
  refine shapeCast_apply _ _ (ix2 f (0 : Fin 1)) (ix1 f) ?_
  rw [Shape.rowMajor_val_one, Shape.rowMajor_val_two]
  show f.val = f.val * 1 + 0
  omega

end Cert.KernelIdeal.ConvValue

end
-- ==== Proof.lean ====
/-
  A Pallas kernel for a "dense CNN" layer against its jnp reference, equal over the extended reals.

  Both programs keep plane 0 of each of 16 images `x : [16, 256, 256]`, the taps of input channel 2 of each of 64
  filters `wt : [64, 9]` (tap `k = 3a + c` at offset `(a, c)` of a 3 × 3 window) and a bias `b : [64]`, and compute the
  3 × 3 "valid" convolution

      out[n, f, h, w] = ( ∑ k < 9,  wt[f, k] · x[n, h + k / 3, w + k % 3] ) + b[f]            (ConvSpec.lean).

  The kernel runs a 16 × 4 grid — one image and one group of 16 filters per point —, and at a point adds the nine
  products `tap · shifted window` one after the other onto a zero accumulator, then the bias (KernelBlock.lean); the
  blocks it writes back tile the result (KernelValue.lean). The reference stacks the nine shifted windows on a new
  axis, contracts it with the taps, moves the filter axis forward and adds the bias (RefConv.lean). The planes and
  taps are cut out of the arguments by the same operations in both programs (HostPrelude.lean). The two results
  differ only in the order of each product's factors and in how the nine products are added up: commutativity and
  associativity of `·` and `+` on the extended reals and `0 + y = y`, which hold at the infinities too, so the
  precondition (finite inputs) is never opened. The ideal pass rewrote nothing, so `preserves` has no conjunct.
  The frames of the kernel's two programs are the generated ones; the reference's is its generated run with the
  result dropped.
-/
import proofs.«137176_j39230231281863_2_alg».proof.Defs
import proofs.«137176_j39230231281863_2_alg».proof.Proof.Gen.Kernel
import proofs.«137176_j39230231281863_2_alg».proof.Proof.Gen.Kernel.Skeleton
import proofs.«137176_j39230231281863_2_alg».proof.Proof.Gen.Kernel.Launch
import proofs.«137176_j39230231281863_2_alg».proof.Proof.Gen.Kernel.Points
import proofs.«137176_j39230231281863_2_alg».proof.Proof.Gen.Kernel.Frame
import proofs.«137176_j39230231281863_2_alg».proof.Proof.Gen.KernelIdeal
import proofs.«137176_j39230231281863_2_alg».proof.Proof.Gen.KernelIdeal.Skeleton
import proofs.«137176_j39230231281863_2_alg».proof.Proof.Gen.KernelIdeal.Launch
import proofs.«137176_j39230231281863_2_alg».proof.Proof.Gen.KernelIdeal.Points
import proofs.«137176_j39230231281863_2_alg».proof.Proof.Gen.KernelIdeal.Frame
import proofs.«137176_j39230231281863_2_alg».proof.Proof.Gen.ReferenceIdeal
import proofs.«137176_j39230231281863_2_alg».proof.Proof.Gen.ReferenceIdeal.Run
import proofs.«137176_j39230231281863_2_alg».proof.Proof.Gen.ReferenceIdeal.Read
import proofs.«137176_j39230231281863_2_alg».proof.Proof.Gen.Pre_finite_inputs
import proofs.«137176_j39230231281863_2_alg».proof.Proof.ConvSpec
import proofs.«137176_j39230231281863_2_alg».proof.Proof.KernelValue
import proofs.«137176_j39230231281863_2_alg».proof.Proof.RefConv
import proofs.«137176_j39230231281863_2_alg».proof.Proof.HostPrelude
import Idealize.ShloMosaic.Adequacy
import Idealize.ShloMosaic.Init

noncomputable section

namespace Cert.Proof

open Idealize.ShloMosaic Idealize.SL.Sem Cert.ConvSpec

/-- The word-level kernel terminates, faults nowhere and leaves its arguments as they were: the generated frame. -/
theorem frame_kernel : Cert.frame_Kernel := fun m ρ _ => Cert.Kernel.Gen.frame m ρ

/-- So does the idealized kernel: the generated frame at the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the extended reals: nothing was rewritten. -/
theorem preserves : Cert.preserves_Kernel_KernelIdeal := trivial

/-- From memories that agree on the three arguments both programs end with the convolution of the same planes, taps
    and bias: the kernel's blocks tile it, the reference's sum over the stacked windows is it term by term. -/
theorem algebraic : Cert.algebraic_KernelIdeal_ReferenceIdeal := by
  intro m ρ m' ρ' _ hagree
  refine ⟨fun c => conv (Cert.KernelIdeal.ConvValue.planesOf m c) (Cert.KernelIdeal.ConvValue.tapsOf m c)
    (Cert.KernelIdeal.ConvValue.biasOf m c), Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2.1,
    (hagree c).2.2]
  show _ = conv (Cert.KernelIdeal.ConvValue.planesOf m c) (Cert.KernelIdeal.ConvValue.tapsOf m c)
    (Cert.KernelIdeal.ConvValue.biasOf m c)
  rw [Cert.KernelIdeal.ConvValue.planes_eq m c, Cert.KernelIdeal.ConvValue.taps_eq m c,
    Cert.KernelIdeal.ConvValue.bias_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
